-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S16384x128 : Shape := ⟨2, ![16384, 128]⟩
abbrev S128x64 : Shape := ⟨2, ![128, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16384x64 .f32) (main_arg1 : FVec F S16384x128 .f32) (main_arg2 : FVec F S128x64 .f32) (main_arg3 : FVec F S64 .f32) (main_arg4 : FVec F S128x64 .f32) (main_arg5 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16384x64 : Shape := ⟨2, ![16384, 64]⟩
abbrev S16384x128 : Shape := ⟨2, ![16384, 128]⟩
abbrev S128x64 : Shape := ⟨2, ![128, 64]⟩
abbrev S64 : Shape := ⟨1, ![64]⟩
abbrev S64x64 : Shape := ⟨2, ![64, 64]⟩
abbrev S_ : Shape := ⟨0, ![]⟩
abbrev S1x64 : Shape := ⟨2, ![1, 64]⟩
abbrev S16384 : Shape := ⟨1, ![16384]⟩
abbrev S4096x64 : Shape := ⟨2, ![4096, 64]⟩
abbrev S4096x128 : Shape := ⟨2, ![4096, 128]⟩
abbrev S4096 : Shape := ⟨1, ![4096]⟩
abbrev S64x4096 : Shape := ⟨2, ![64, 4096]⟩
abbrev S64x1 : Shape := ⟨2, ![64, 1]⟩

abbrev nBuf : Space → Nat
  | .hbm => 16
  | .vmem => 11
  | .smem => 0
  | _ => 0

abbrev bufTy : (tb : Table) → Fin (tcTables nBuf tb) → BufTy
  | .hbm, ⟨0, _⟩ => ⟨S16384x64, .f32⟩
  | .hbm, ⟨1, _⟩ => ⟨S16384x128, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x64, .f32⟩
  | .hbm, ⟨13, _⟩ => ⟨S1x64, .f32⟩
  | .hbm, ⟨14, _⟩ => ⟨S1x64, .f32⟩
  | .hbm, ⟨15, _⟩ => ⟨S16384, .f32⟩
  | .local _ .vmem, ⟨0, _⟩ => ⟨S4096x64, .f32⟩
  | .local _ .vmem, ⟨1, _⟩ => ⟨S4096x64, .f32⟩
  | .local _ .vmem, ⟨2, _⟩ => ⟨S4096x128, .f32⟩
  | .local _ .vmem, ⟨3, _⟩ => ⟨S4096x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S1x64, .f32⟩
  | .local _ .vmem, ⟨8, _⟩ => ⟨S64x64, .f32⟩
  | .local _ .vmem, ⟨9, _⟩ => ⟨S4096, .f32⟩
  | .local _ .vmem, ⟨10, _⟩ => ⟨S4096, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S64x64 : S_.BroadcastsInDim S64x64 (![] : Fin 0 → Fin S64x64.rank)
  bcast_S64_S1x64_1 : S64.BroadcastsInDim S1x64 (![1] : Fin 1 → Fin S1x64.rank)
  inb_S4096x128_S4096x128_0_0 : ∀ a, (![0, 0] : Fin 2 → Nat) a + S4096x128.size a ≤ S4096x128.size a
  h_S4096x128 : 0 < S4096x128.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S64x1_S64x4096 : S64x1.Broadcasts S64x4096
  reduces_S64x4096_S4096 : S64x4096.Reduces [0] S4096
  inb_S4096_S4096_0 : ∀ a, (![0] : Fin 1 → Nat) a + S4096.size a ≤ S4096.size a
  h_S4096 : 0 < S4096.numel
  dot_S128x64_S4096x128_S64x4096_0_1_1_0_n_n_wf : DotDims.WF S128x64 S4096x128 S64x4096 [0] [1] [1] [0] [] []
  dot_S64x64_S4096x64_S64x4096_0_1_1_0_n_n_wf : DotDims.WF S64x64 S4096x64 S64x4096 [0] [1] [1] [0] [] []
  dot_S64x64_S1x64_S64x1_0_1_1_0_n_n_wf : DotDims.WF S64x64 S1x64 S64x1 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S16384x64.size a
  hwx0_0 : ∀ i : grid0.Coords, EltTy.bits .f32 = 32 ∨ (Rect.block (s := S16384x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096.size a ≤ S16384.size a
  hwx0_7 : ∀ i : grid0.Coords, EltTy.bits .f32 = 32 ∨ (Rect.block (s := S16384) S4096.size (cc0_transform_7 i) (hinb0_7 i)).WholeWords (EltTy.packing .f32)

variable [Facts₀]

def dot_S128x64_S4096x128_S64x4096_0_1_1_0_n_n : DotDims S128x64 S4096x128 S64x4096 where
  lhsContracting := [0]
  rhsContracting := [1]
  lhsNonContracting := [1]
  rhsNonContracting := [0]
  lhsBatch := []
  rhsBatch := []
  wf := dot_S128x64_S4096x128_S64x4096_0_1_1_0_n_n_wf
def dot_S64x64_S4096x64_S64x4096_0_1_1_0_n_n : DotDims S64x64 S4096x64 S64x4096 where
  lhsContracting := [0]
  rhsContracting := [1]
  lhsNonContracting := [1]
  rhsNonContracting := [0]
  lhsBatch := []
  rhsBatch := []
  wf := dot_S64x64_S4096x64_S64x4096_0_1_1_0_n_n_wf
def dot_S64x64_S1x64_S64x1_0_1_1_0_n_n : DotDims S64x64 S1x64 S64x1 where
  lhsContracting := [0]
  rhsContracting := [1]
  lhsNonContracting := [1]
  rhsNonContracting := [0]
  lhsBatch := []
  rhsBatch := []
  wf := dot_S64x64_S1x64_S64x1_0_1_1_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x64 : Shape := ⟨2, ![16384, 64]⟩
abbrev S16384x128 : Shape := ⟨2, ![16384, 128]⟩
abbrev S128x64 : Shape := ⟨2, ![128, 64]⟩
abbrev S64 : Shape := ⟨1, ![64]⟩
abbrev S1x64 : Shape := ⟨2, ![1, 64]⟩
abbrev S_ : Shape := ⟨0, ![]⟩
abbrev S16384 : Shape := ⟨1, ![16384]⟩

abbrev nBuf : Space → Nat
  | .hbm => 34
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x128, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S16384x64, .f32⟩
  | .hbm, ⟨11, _⟩ => ⟨S1x64, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384x64, .f32⟩
  | .hbm, ⟨22, _⟩ => ⟨S16384x64, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S_S16384 : S_.BroadcastsInDim S16384 (![] : Fin 0 → Fin S16384.rank)
  dot_S16384x128_S128x64_S16384x64_1_0_0_1_n_n_wf : DotDims.WF S16384x128 S128x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf

class Facts : Prop extends Facts₀ where

variable [Facts]
-- ==== Proof.Spec.lean ====
/-
  The conditional affine-Gaussian log-density, row by row, as one function of the six argument arrays.

  For row r of the batch and feature d:
    affine X W b r d   = Σ_k X(r,k)·W(k,d) + b(d)                       (the mean, and the pre-activation of the log-scale)
    logScale r d       = tanh (affine X Wσ bσ r d)
    resid r d          = (θ(r,d) - affine X Wμ bμ r d) · exp(-logScale r d)
    rowLogProb r       = ((-1/2)·(0 + Σ_d (resid² + L)) - (0 + Σ_d logScale)) / 2     (L the word for log 2π; the reference's form)
    rowFolded r        = (-1/4)·Σ_d (resid² + 2·logScale) + (-16·L)                     (the kernel's form)
  The float words stay words here; the modules that compare the two forms read them.
-/
import Idealize.ShloMosaic.Lib.ValueIdx

noncomputable section

namespace Cert.FlowLogProb

open Idealize.ShloMosaic Idealize.ShloMosaic.ValueIdx

/-- Row `r` of `X·W`, plus the bias, at feature `d`. -/
def affine (X : (⟨2, ![16384, 128]⟩ : Shape).Idx → EReal) (W : (⟨2, ![128, 64]⟩ : Shape).Idx → EReal)
    (b : (⟨1, ![64]⟩ : Shape).Idx → EReal) (r : Fin 16384) (d : Fin 64) : EReal :=
  (∑ k : Fin 128, X (ix2 r k) * W (ix2 k d)) + b (ix1 d)

/-- The bounded log-scale: `tanh` of the affine map by `Wσ`, `bσ`. -/
def logScale (X : (⟨2, ![16384, 128]⟩ : Shape).Idx → EReal) (Ws : (⟨2, ![128, 64]⟩ : Shape).Idx → EReal)
    (bs : (⟨1, ![64]⟩ : Shape).Idx → EReal) (r : Fin 16384) (d : Fin 64) : EReal :=
  Ideal.tanh (affine X Ws bs r d)

/-- The standardised residual: the distance to the mean, times `exp` of minus the log-scale. -/
def resid (T : (⟨2, ![16384, 64]⟩ : Shape).Idx → EReal) (X : (⟨2, ![16384, 128]⟩ : Shape).Idx → EReal)
    (Wm : (⟨2, ![128, 64]⟩ : Shape).Idx → EReal) (bm : (⟨1, ![64]⟩ : Shape).Idx → EReal)
    (Ws : (⟨2, ![128, 64]⟩ : Shape).Idx → EReal) (bs : (⟨1, ![64]⟩ : Shape).Idx → EReal) (r : Fin 16384) (d : Fin 64) : EReal :=
  (T (ix2 r d) - affine X Wm bm r d) * Ideal.exp (-(logScale X Ws bs r d))

/-- The row's log-density at temperature 2, as the reference spells it. -/
def rowLogProb (T : (⟨2, ![16384, 64]⟩ : Shape).Idx → EReal) (X : (⟨2, ![16384, 128]⟩ : Shape).Idx → EReal)
    (Wm : (⟨2, ![128, 64]⟩ : Shape).Idx → EReal) (bm : (⟨1, ![64]⟩ : Shape).Idx → EReal)
    (Ws : (⟨2, ![128, 64]⟩ : Shape).Idx → EReal) (bs : (⟨1, ![64]⟩ : Shape).Idx → EReal) (r : Fin 16384) : EReal :=
  Ideal.div (Ideal.ofBits .f32 0xBF000000#32 * (Ideal.ofBits .f32 0x00000000#32
        + ∑ d : Fin 64, (resid T X Wm bm Ws bs r d * resid T X Wm bm Ws bs r d + Ideal.ofBits .f32 0x3FEB3F8E#32))
      - (Ideal.ofBits .f32 0x00000000#32 + ∑ d : Fin 64, logScale X Ws bs r d)) (Ideal.ofBits .f32 0x40000000#32)

/-- The same row as the kernel spells it: one factor on one sum, the constants folded into one word. -/
def rowFolded (T : (⟨2, ![16384, 64]⟩ : Shape).Idx → EReal) (X : (⟨2, ![16384, 128]⟩ : Shape).Idx → EReal)
    (Wm : (⟨2, ![128, 64]⟩ : Shape).Idx → EReal) (bm : (⟨1, ![64]⟩ : Shape).Idx → EReal)
    (Ws : (⟨2, ![128, 64]⟩ : Shape).Idx → EReal) (bs : (⟨1, ![64]⟩ : Shape).Idx → EReal) (r : Fin 16384) : EReal :=
  Ideal.ofBits .f32 0xBE800000#32 * (∑ d : Fin 64, (resid T X Wm bm Ws bs r d * resid T X Wm bm Ws bs r d
      + Ideal.ofBits .f32 0x40000000#32 * logScale X Ws bs r d)) + Ideal.ofBits .f32 0xC1EB3F8E#32

/-- The whole result: entry `i` is row `i`'s log-density. -/
def logProb (T : (⟨2, ![16384, 64]⟩ : Shape).Idx → EReal) (X : (⟨2, ![16384, 128]⟩ : Shape).Idx → EReal)
    (Wm : (⟨2, ![128, 64]⟩ : Shape).Idx → EReal) (bm : (⟨1, ![64]⟩ : Shape).Idx → EReal)
    (Ws : (⟨2, ![128, 64]⟩ : Shape).Idx → EReal) (bs : (⟨1, ![64]⟩ : Shape).Idx → EReal) :
    (⟨1, ![16384]⟩ : Shape).Idx → EReal :=
  fun i => rowLogProb T X Wm bm Ws bs ⟨(i 0).val, (i 0).isLt⟩

/-- A sum against one column of the identity matrix picks one term: Σ_j e(j)·x(j) = x(d) when e is 1 at d and 0
    elsewhere. (Zero times anything is zero on the extended reals, so no finiteness is asked.) -/
theorem sum_unit_mul {n : Nat} (d : Fin n) (e x : Fin n → EReal) (he : ∀ j, e j = if j = d then 1 else 0) :
    ∑ j, e j * x j = x d := by
  rw [Finset.sum_eq_single d]
  · rw [he d, if_pos rfl, one_mul]
  · intro j _ hj; rw [he j, if_neg hj, zero_mul]
  · intro h; exact absurd (Finset.mem_univ d) h

end Cert.FlowLogProb

end
-- ==== Proof.Words.lean ====
/-
  The float words that the kernel and its reference spell, read as extended reals.

  The reference adds log(2π), rounded to f32 (the word 0x3FEB3F8E = 7708615 / 2^22), to each of the 64 squared
  residuals of a row, halves the sum, and halves again (the temperature 2). The kernel instead adds ONE folded
  constant, -(1/2)·64·log(2π)/2 rounded to f32: the word 0xC1EB3F8E. Both words have the same significand and
  their exponents differ by four, so the folded constant is EXACTLY -16 times the reference's word: the rounding
  commutes with the power of two. The other words are the dyadics 0, 2, -1/2 and -1/4.
-/
import Idealize.ShloMosaic.PureOps.Ideal

noncomputable section

namespace Cert.FlowLogProb.Words

open Idealize.ShloMosaic

/-- `+0.0` denotes `0`. -/
theorem zero : Ideal.ofBits .f32 0x00000000#32 = 0 := by
  simp [Ideal.ofBits, Ideal.ieee]

/-- `2.0`: the kernel's factor on the log-scale, and the reference's temperature. -/
theorem two : Ideal.ofBits .f32 0x40000000#32 = ((2 : ℝ) : EReal) := by
  simp [Ideal.ofBits, Ideal.ieee, -EReal.coe_mul]; norm_num

/-- `-0.5`: the reference's factor on the sum of squares. -/
theorem negHalf : Ideal.ofBits .f32 0xBF000000#32 = ((-(1 / 2) : ℝ) : EReal) := by
  simp [Ideal.ofBits, Ideal.ieee, -EReal.coe_mul]; norm_num

/-- `-0.25`: the kernel's factor, -(1/2) over the temperature. -/
theorem negQuarter : Ideal.ofBits .f32 0xBE800000#32 = ((-(1 / 4) : ℝ) : EReal) := by
  simp [Ideal.ofBits, Ideal.ieee, -EReal.coe_mul]; norm_num

/-- The f32 nearest log(2π), as the rational it is. -/
theorem log2pi : Ideal.ofBits .f32 0x3FEB3F8E#32 = ((7708615 / 4194304 : ℝ) : EReal) := by
  simp [Ideal.ofBits, Ideal.ieee, -EReal.coe_mul]; norm_num

/-- The kernel's folded constant: -16 times that rational. -/
theorem folded : Ideal.ofBits .f32 0xC1EB3F8E#32 = ((-(16 * (7708615 / 4194304)) : ℝ) : EReal) := by
  simp [Ideal.ofBits, Ideal.ieee, -EReal.coe_mul]; norm_num

end Cert.FlowLogProb.Words

end
-- ==== Proof.KernelRow.lean ====
/-
  One block row of the kernel's body is the folded row of the specification.

  The body works TRANSPOSED on a block of 4096 rows: features run down the 64 sublanes and the block's rows along
  the 4096 lanes. Its three kinds of matrix product all contract the left operand's axis 0 with the right operand's
  axis 1, so entry (d, b) is Σ_k lhs(k,d)·rhs(b,k):
    weights against the context block — the mean and the log-scale's pre-activation of row b, feature d, with the
      factors in the other order than the reference's;
    the identity matrix against the θ block — θ(b, d) itself, a transpose done by the matrix unit;
    the identity matrix against a bias row [1,64] — the bias as a column [64,1], then broadcast along the lanes.
  A sum against a column of the identity picks one term. Then tanh, 0 - ·, exp, the products, the sum over the 64
  features (the sublane axis) and the two scalar constants. Read at lane b this is `rowFolded` of the array row
  the block's row b is.
-/
import proofs.«135017_g32315333935317_cont_9to1_898_14_alg».proof.Proof.Gen.KernelIdeal.Skeleton
import proofs.«135017_g32315333935317_cont_9to1_898_14_alg».proof.Proof.Spec
import proofs.«135017_g32315333935317_cont_9to1_898_14_alg».proof.Proof.Words
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx
open Cert.FlowLogProb

/-! ## The three matrix products at an entry -/

/-! ### weights [128,64] against a context block [4096,128], both contracted on the 128 context features: entry (d, b) of the [64,4096] product -/

theorem colsCtx_lhs0 (j : S64x4096.Idx) (q : dot_S128x64_S4096x128_S64x4096_0_1_1_0_n_n.contr.Idx) :
    (dot_S128x64_S4096x128_S64x4096_0_1_1_0_n_n.lhsIdx j q 0).val = (q ⟨0, by decide⟩).val :=
  dot_S128x64_S4096x128_S64x4096_0_1_1_0_n_n.lhsIdx_val_of_single rfl j q
theorem colsCtx_lhs1 (j : S64x4096.Idx) (q : dot_S128x64_S4096x128_S64x4096_0_1_1_0_n_n.contr.Idx) :
    (dot_S128x64_S4096x128_S64x4096_0_1_1_0_n_n.lhsIdx j q 1).val = (j 0).val := by
  unfold DotDims.lhsIdx
  rw [dif_neg (show ¬(1 : Fin S128x64.rank) ∈ dot_S128x64_S4096x128_S64x4096_0_1_1_0_n_n.lhsBatch by decide), dif_pos (show (1 : Fin S128x64.rank) ∈ dot_S128x64_S4096x128_S64x4096_0_1_1_0_n_n.lhsNonContracting by decide)]
  rfl
theorem colsCtx_rhs0 (j : S64x4096.Idx) (q : dot_S128x64_S4096x128_S64x4096_0_1_1_0_n_n.contr.Idx) :
    (dot_S128x64_S4096x128_S64x4096_0_1_1_0_n_n.rhsIdx j q 0).val = (j 1).val := by
  unfold DotDims.rhsIdx
  rw [dif_neg (show ¬(0 : Fin S4096x128.rank) ∈ dot_S128x64_S4096x128_S64x4096_0_1_1_0_n_n.rhsBatch by decide), dif_pos (show (0 : Fin S4096x128.rank) ∈ dot_S128x64_S4096x128_S64x4096_0_1_1_0_n_n.rhsNonContracting by decide)]
  rfl
theorem colsCtx_rhs1 (j : S64x4096.Idx) (q : dot_S128x64_S4096x128_S64x4096_0_1_1_0_n_n.contr.Idx) :
    (dot_S128x64_S4096x128_S64x4096_0_1_1_0_n_n.rhsIdx j q 1).val = (q ⟨0, by decide⟩).val :=
  dot_S128x64_S4096x128_S64x4096_0_1_1_0_n_n.rhsIdx_val_of_single rfl j q

/-- Into the zero accumulator, entry (p, q) of the product is Σ_k lhs(k,p)·rhs(q,k): the left operand is read down
    its column `p`, the right one along its row `q`. Whatever the contraction precision asked for. -/
theorem colsCtx_apply (prec : Option ContractPrecision) (lhs : FVec Ideal S128x64 .f32) (rhs : FVec Ideal S4096x128 .f32)
    (p : Fin 64) (q : Fin 4096) :
    matmul dot_S128x64_S4096x128_S64x4096_0_1_1_0_n_n prec lhs rhs (constant (F := Ideal) S64x4096 .f32 0x00000000#32) (ix2 p q)
      = ∑ k : Fin 128, lhs (ix2 k p) * rhs (ix2 q k) := by
  simp only [matmul]
  rw [Ideal.matmul_constant_zero_apply, ← Equiv.sum_comp (ValueIdx.contrEquiv1 dot_S128x64_S4096x128_S64x4096_0_1_1_0_n_n 128 rfl rfl).symm]
  refine Finset.sum_congr rfl fun k _ => ?_
  have hk := ValueIdx.contrEquiv1_symm_val dot_S128x64_S4096x128_S64x4096_0_1_1_0_n_n 128 rfl rfl k
  have el : dot_S128x64_S4096x128_S64x4096_0_1_1_0_n_n.lhsIdx (ix2 p q) ((ValueIdx.contrEquiv1 dot_S128x64_S4096x128_S64x4096_0_1_1_0_n_n 128 rfl rfl).symm k) = ix2 k p := funext fun a => Fin.ext (by
    match a with
    | ⟨0, _⟩ => exact (colsCtx_lhs0 _ _).trans hk
    | ⟨1, _⟩ => exact colsCtx_lhs1 _ _)
  have er : dot_S128x64_S4096x128_S64x4096_0_1_1_0_n_n.rhsIdx (ix2 p q) ((ValueIdx.contrEquiv1 dot_S128x64_S4096x128_S64x4096_0_1_1_0_n_n 128 rfl rfl).symm k) = ix2 q k := funext fun a => Fin.ext (by
    match a with
    | ⟨0, _⟩ => exact colsCtx_rhs0 _ _
    | ⟨1, _⟩ => exact (colsCtx_rhs1 _ _).trans hk)
  rw [el, er]

/-! ### a [64,64] matrix against a θ block [4096,64], contracted on the 64 features: entry (d, b) of the [64,4096] product -/

theorem colsEye_lhs0 (j : S64x4096.Idx) (q : dot_S64x64_S4096x64_S64x4096_0_1_1_0_n_n.contr.Idx) :
    (dot_S64x64_S4096x64_S64x4096_0_1_1_0_n_n.lhsIdx j q 0).val = (q ⟨0, by decide⟩).val :=
  dot_S64x64_S4096x64_S64x4096_0_1_1_0_n_n.lhsIdx_val_of_single rfl j q
theorem colsEye_lhs1 (j : S64x4096.Idx) (q : dot_S64x64_S4096x64_S64x4096_0_1_1_0_n_n.contr.Idx) :
    (dot_S64x64_S4096x64_S64x4096_0_1_1_0_n_n.lhsIdx j q 1).val = (j 0).val := by
  unfold DotDims.lhsIdx
  rw [dif_neg (show ¬(1 : Fin S64x64.rank) ∈ dot_S64x64_S4096x64_S64x4096_0_1_1_0_n_n.lhsBatch by decide), dif_pos (show (1 : Fin S64x64.rank) ∈ dot_S64x64_S4096x64_S64x4096_0_1_1_0_n_n.lhsNonContracting by decide)]
  rfl
theorem colsEye_rhs0 (j : S64x4096.Idx) (q : dot_S64x64_S4096x64_S64x4096_0_1_1_0_n_n.contr.Idx) :
    (dot_S64x64_S4096x64_S64x4096_0_1_1_0_n_n.rhsIdx j q 0).val = (j 1).val := by
  unfold DotDims.rhsIdx
  rw [dif_neg (show ¬(0 : Fin S4096x64.rank) ∈ dot_S64x64_S4096x64_S64x4096_0_1_1_0_n_n.rhsBatch by decide), dif_pos (show (0 : Fin S4096x64.rank) ∈ dot_S64x64_S4096x64_S64x4096_0_1_1_0_n_n.rhsNonContracting by decide)]
  rfl
theorem colsEye_rhs1 (j : S64x4096.Idx) (q : dot_S64x64_S4096x64_S64x4096_0_1_1_0_n_n.contr.Idx) :
    (dot_S64x64_S4096x64_S64x4096_0_1_1_0_n_n.rhsIdx j q 1).val = (q ⟨0, by decide⟩).val :=
  dot_S64x64_S4096x64_S64x4096_0_1_1_0_n_n.rhsIdx_val_of_single rfl j q

/-- Into the zero accumulator, entry (p, q) of the product is Σ_k lhs(k,p)·rhs(q,k): the left operand is read down
    its column `p`, the right one along its row `q`. Whatever the contraction precision asked for. -/
theorem colsEye_apply (prec : Option ContractPrecision) (lhs : FVec Ideal S64x64 .f32) (rhs : FVec Ideal S4096x64 .f32)
    (p : Fin 64) (q : Fin 4096) :
    matmul dot_S64x64_S4096x64_S64x4096_0_1_1_0_n_n prec lhs rhs (constant (F := Ideal) S64x4096 .f32 0x00000000#32) (ix2 p q)
      = ∑ k : Fin 64, lhs (ix2 k p) * rhs (ix2 q k) := by
  simp only [matmul]
  rw [Ideal.matmul_constant_zero_apply, ← Equiv.sum_comp (ValueIdx.contrEquiv1 dot_S64x64_S4096x64_S64x4096_0_1_1_0_n_n 64 rfl rfl).symm]
  refine Finset.sum_congr rfl fun k _ => ?_
  have hk := ValueIdx.contrEquiv1_symm_val dot_S64x64_S4096x64_S64x4096_0_1_1_0_n_n 64 rfl rfl k
  have el : dot_S64x64_S4096x64_S64x4096_0_1_1_0_n_n.lhsIdx (ix2 p q) ((ValueIdx.contrEquiv1 dot_S64x64_S4096x64_S64x4096_0_1_1_0_n_n 64 rfl rfl).symm k) = ix2 k p := funext fun a => Fin.ext (by
    match a with
    | ⟨0, _⟩ => exact (colsEye_lhs0 _ _).trans hk
    | ⟨1, _⟩ => exact colsEye_lhs1 _ _)
  have er : dot_S64x64_S4096x64_S64x4096_0_1_1_0_n_n.rhsIdx (ix2 p q) ((ValueIdx.contrEquiv1 dot_S64x64_S4096x64_S64x4096_0_1_1_0_n_n 64 rfl rfl).symm k) = ix2 q k := funext fun a => Fin.ext (by
    match a with
    | ⟨0, _⟩ => exact colsEye_rhs0 _ _
    | ⟨1, _⟩ => exact (colsEye_rhs1 _ _).trans hk)
  rw [el, er]

/-! ### a [64,64] matrix against a bias row [1,64], contracted on the 64 features: entry (d, 0) of the [64,1] column -/

theorem colsBias_lhs0 (j : S64x1.Idx) (q : dot_S64x64_S1x64_S64x1_0_1_1_0_n_n.contr.Idx) :
    (dot_S64x64_S1x64_S64x1_0_1_1_0_n_n.lhsIdx j q 0).val = (q ⟨0, by decide⟩).val :=
  dot_S64x64_S1x64_S64x1_0_1_1_0_n_n.lhsIdx_val_of_single rfl j q
theorem colsBias_lhs1 (j : S64x1.Idx) (q : dot_S64x64_S1x64_S64x1_0_1_1_0_n_n.contr.Idx) :
    (dot_S64x64_S1x64_S64x1_0_1_1_0_n_n.lhsIdx j q 1).val = (j 0).val := by
  unfold DotDims.lhsIdx
  rw [dif_neg (show ¬(1 : Fin S64x64.rank) ∈ dot_S64x64_S1x64_S64x1_0_1_1_0_n_n.lhsBatch by decide), dif_pos (show (1 : Fin S64x64.rank) ∈ dot_S64x64_S1x64_S64x1_0_1_1_0_n_n.lhsNonContracting by decide)]
  rfl
theorem colsBias_rhs0 (j : S64x1.Idx) (q : dot_S64x64_S1x64_S64x1_0_1_1_0_n_n.contr.Idx) :
    (dot_S64x64_S1x64_S64x1_0_1_1_0_n_n.rhsIdx j q 0).val = (j 1).val := by
  unfold DotDims.rhsIdx
  rw [dif_neg (show ¬(0 : Fin S1x64.rank) ∈ dot_S64x64_S1x64_S64x1_0_1_1_0_n_n.rhsBatch by decide), dif_pos (show (0 : Fin S1x64.rank) ∈ dot_S64x64_S1x64_S64x1_0_1_1_0_n_n.rhsNonContracting by decide)]
  rfl
theorem colsBias_rhs1 (j : S64x1.Idx) (q : dot_S64x64_S1x64_S64x1_0_1_1_0_n_n.contr.Idx) :
    (dot_S64x64_S1x64_S64x1_0_1_1_0_n_n.rhsIdx j q 1).val = (q ⟨0, by decide⟩).val :=
  dot_S64x64_S1x64_S64x1_0_1_1_0_n_n.rhsIdx_val_of_single rfl j q

/-- Into the zero accumulator, entry (p, q) of the product is Σ_k lhs(k,p)·rhs(q,k): the left operand is read down
    its column `p`, the right one along its row `q`. Whatever the contraction precision asked for. -/
theorem colsBias_apply (prec : Option ContractPrecision) (lhs : FVec Ideal S64x64 .f32) (rhs : FVec Ideal S1x64 .f32)
    (p : Fin 64) (q : Fin 1) :
    matmul dot_S64x64_S1x64_S64x1_0_1_1_0_n_n prec lhs rhs (constant (F := Ideal) S64x1 .f32 0x00000000#32) (ix2 p q)
      = ∑ k : Fin 64, lhs (ix2 k p) * rhs (ix2 q k) := by
  simp only [matmul]
  rw [Ideal.matmul_constant_zero_apply, ← Equiv.sum_comp (ValueIdx.contrEquiv1 dot_S64x64_S1x64_S64x1_0_1_1_0_n_n 64 rfl rfl).symm]
  refine Finset.sum_congr rfl fun k _ => ?_
  have hk := ValueIdx.contrEquiv1_symm_val dot_S64x64_S1x64_S64x1_0_1_1_0_n_n 64 rfl rfl k
  have el : dot_S64x64_S1x64_S64x1_0_1_1_0_n_n.lhsIdx (ix2 p q) ((ValueIdx.contrEquiv1 dot_S64x64_S1x64_S64x1_0_1_1_0_n_n 64 rfl rfl).symm k) = ix2 k p := funext fun a => Fin.ext (by
    match a with
    | ⟨0, _⟩ => exact (colsBias_lhs0 _ _).trans hk
    | ⟨1, _⟩ => exact colsBias_lhs1 _ _)
  have er : dot_S64x64_S1x64_S64x1_0_1_1_0_n_n.rhsIdx (ix2 p q) ((ValueIdx.contrEquiv1 dot_S64x64_S1x64_S64x1_0_1_1_0_n_n 64 rfl rfl).symm k) = ix2 q k := funext fun a => Fin.ext (by
    match a with
    | ⟨0, _⟩ => exact colsBias_rhs0 _ _
    | ⟨1, _⟩ => exact (colsBias_rhs1 _ _).trans hk)
  rw [el, er]

/-! ## A column broadcast along the lanes, and the sum over the sublanes -/

/-- A column [64,1] broadcast to [64,4096], at (d, b), is the column's entry d. -/
theorem colBroadcast_apply (v : FVec Ideal S64x1 .f32) (d : Fin 64) (b : Fin 4096) :
    broadcastTo S64x4096 v broadcasts_S64x1_S64x4096 (ix2 d b) = v (ix2 d (0 : Fin 1)) :=
  broadcastTo_apply v broadcasts_S64x1_S64x4096 (ix2 d b) (ix2 d (0 : Fin 1)) (fun a => by
    match a with
    | ⟨0, _⟩ => show d.val = if (64 : Nat) = 1 then 0 else d.val; rw [if_neg (by decide)]
    | ⟨1, _⟩ => show (0 : Nat) = if (1 : Nat) = 1 then 0 else b.val; rw [if_pos rfl])

/-- The sum over axis 0 of a [64,4096] array, at lane b, is the sum over the 64 sublanes of its entries (d, b). -/
theorem laneSum_apply (src : FVec Ideal S64x4096 .f32) (hφ : FKind.Formats .f32)
    (hacc : (0x00000000#32 : BitVec 32) = FKind.add.neutral .f32 hφ) (b : Fin 4096) :
    multiReduction .add [0] S4096 src 0x00000000#32 reduces_S64x4096_S4096 hφ hacc (ix1 b) = ∑ d : Fin 64, src (ix2 d b) := by
  refine (Ideal.multiReduction_add_single src _ reduces_S64x4096_S4096 hφ hacc (ix1 b)).trans ?_
  refine Finset.sum_congr rfl fun d _ => congrArg src (funext fun a => Fin.ext ?_)
  match a with
  | ⟨0, _⟩ => rfl
  | ⟨1, _⟩ => rfl

/-! ## The body's stages, named -/

variable (v0 : FVec Ideal S4096x128 .f32) (v1 : FVec Ideal S64x64 .f32) (v3 v5 : FVec Ideal S128x64 .f32)
  (v7 : FVec Ideal S4096x64 .f32) (v9 v12 : FVec Ideal S1x64 .f32)

/-- The log-scale of the block, transposed: tanh of (weights against the context block, plus the bias column). -/
def lsVec : FVec Ideal S64x4096 .f32 :=
  tanh (addf (matmul dot_S128x64_S4096x128_S64x4096_0_1_1_0_n_n none v5 v0 (constant (F := Ideal) S64x4096 .f32 0x00000000#32)) (broadcastTo S64x4096 (matmul dot_S64x64_S1x64_S64x1_0_1_1_0_n_n (some .fp32) (shapeCast S64x64 v1 shapeCasts_S64x64_S64x64) (shapeCast S1x64 v12 shapeCasts_S1x64_S1x64) (constant (F := Ideal) S64x1 .f32 0x00000000#32)) broadcasts_S64x1_S64x4096))

/-- The standardised residual of the block, transposed. -/
def zVec : FVec Ideal S64x4096 .f32 :=
  mulf (subf (matmul dot_S64x64_S4096x64_S64x4096_0_1_1_0_n_n none (shapeCast S64x64 v1 shapeCasts_S64x64_S64x64) v7 (constant (F := Ideal) S64x4096 .f32 0x00000000#32))
      (addf (matmul dot_S128x64_S4096x128_S64x4096_0_1_1_0_n_n none v3 v0 (constant (F := Ideal) S64x4096 .f32 0x00000000#32)) (broadcastTo S64x4096 (matmul dot_S64x64_S1x64_S64x1_0_1_1_0_n_n (some .fp32) (shapeCast S64x64 v1 shapeCasts_S64x64_S64x64) (shapeCast S1x64 v9 shapeCasts_S1x64_S1x64) (constant (F := Ideal) S64x1 .f32 0x00000000#32)) broadcasts_S64x1_S64x4096)))
    (exp (subf (broadcast S64x4096 (Scalar.ofBits .f32 0x00000000#32)) (lsVec v0 v1 v5 v12)))

/-- The body's one stored value is these stages under the sublane sum and the two constants. -/
theorem pay_stages : k0_pay1 (F := Ideal) v0 v1 v3 v5 v7 v9 v12
    = addf (mulf (broadcast S4096 (Scalar.ofBits .f32 0xBE800000#32))
        (multiReduction .add [0] S4096 (addf (mulf (zVec v0 v1 v3 v5 v7 v9 v12) (zVec v0 v1 v3 v5 v7 v9 v12)) (mulf (broadcast S64x4096 (Scalar.ofBits .f32 0x40000000#32)) (lsVec v0 v1 v5 v12))) 0x00000000#32 reduces_S64x4096_S4096 (.inl rfl) rfl))
      (broadcast S4096 (Scalar.ofBits .f32 0xC1EB3F8E#32)) := rfl

/-- The log-scale stage at (d, b). -/
theorem lsVec_apply (d : Fin 64) (b : Fin 4096) :
    lsVec v0 v1 v5 v12 (ix2 d b)
      = Ideal.tanh ((∑ k : Fin 128, v5 (ix2 k d) * v0 (ix2 b k)) + ∑ j : Fin 64, v1 (ix2 j d) * v12 (ix2 (0 : Fin 1) j)) := by
  show Ideal.tanh (matmul dot_S128x64_S4096x128_S64x4096_0_1_1_0_n_n none v5 v0 (constant (F := Ideal) S64x4096 .f32 0x00000000#32) (ix2 d b)
      + broadcastTo S64x4096 (matmul dot_S64x64_S1x64_S64x1_0_1_1_0_n_n (some .fp32) (shapeCast S64x64 v1 shapeCasts_S64x64_S64x64) (shapeCast S1x64 v12 shapeCasts_S1x64_S1x64) (constant (F := Ideal) S64x1 .f32 0x00000000#32)) broadcasts_S64x1_S64x4096 (ix2 d b)) = _
  rw [colsCtx_apply, colBroadcast_apply, colsBias_apply, shapeCast_self, shapeCast_self]

/-- The residual stage at (d, b). -/
theorem zVec_apply (d : Fin 64) (b : Fin 4096) :
    zVec v0 v1 v3 v5 v7 v9 v12 (ix2 d b)
      = ((∑ j : Fin 64, v1 (ix2 j d) * v7 (ix2 b j))
          - ((∑ k : Fin 128, v3 (ix2 k d) * v0 (ix2 b k)) + ∑ j : Fin 64, v1 (ix2 j d) * v9 (ix2 (0 : Fin 1) j)))
        * Ideal.exp (Ideal.ofBits .f32 0x00000000#32 - lsVec v0 v1 v5 v12 (ix2 d b)) := by
  show (matmul dot_S64x64_S4096x64_S64x4096_0_1_1_0_n_n none (shapeCast S64x64 v1 shapeCasts_S64x64_S64x64) v7 (constant (F := Ideal) S64x4096 .f32 0x00000000#32) (ix2 d b)
        - (matmul dot_S128x64_S4096x128_S64x4096_0_1_1_0_n_n none v3 v0 (constant (F := Ideal) S64x4096 .f32 0x00000000#32) (ix2 d b)
          + broadcastTo S64x4096 (matmul dot_S64x64_S1x64_S64x1_0_1_1_0_n_n (some .fp32) (shapeCast S64x64 v1 shapeCasts_S64x64_S64x64) (shapeCast S1x64 v9 shapeCasts_S1x64_S1x64) (constant (F := Ideal) S64x1 .f32 0x00000000#32)) broadcasts_S64x1_S64x4096 (ix2 d b)))
      * Ideal.exp (Ideal.ofBits .f32 0x00000000#32 - lsVec v0 v1 v5 v12 (ix2 d b)) = _
  rw [colsEye_apply, colsCtx_apply, colBroadcast_apply, colsBias_apply, shapeCast_self, shapeCast_self]

/-- The stored value at lane b: the sublane sum of the squared residual plus twice the log-scale, scaled, plus the
    folded constant. -/
theorem pay_apply (b : Fin 4096) :
    k0_pay1 (F := Ideal) v0 v1 v3 v5 v7 v9 v12 (ix1 b)
      = Ideal.ofBits .f32 0xBE800000#32 * (∑ d : Fin 64, (zVec v0 v1 v3 v5 v7 v9 v12 (ix2 d b) * zVec v0 v1 v3 v5 v7 v9 v12 (ix2 d b)
          + Ideal.ofBits .f32 0x40000000#32 * lsVec v0 v1 v5 v12 (ix2 d b))) + Ideal.ofBits .f32 0xC1EB3F8E#32 := by
  rw [pay_stages]
  show Ideal.ofBits .f32 0xBE800000#32 * multiReduction .add [0] S4096 (addf (mulf (zVec v0 v1 v3 v5 v7 v9 v12) (zVec v0 v1 v3 v5 v7 v9 v12)) (mulf (broadcast S64x4096 (Scalar.ofBits .f32 0x40000000#32)) (lsVec v0 v1 v5 v12))) 0x00000000#32 reduces_S64x4096_S4096 (.inl rfl) rfl (ix1 b)
      + Ideal.ofBits .f32 0xC1EB3F8E#32 = _
  refine congrArg₂ (· + ·) (congrArg₂ (· * ·) rfl ?_) rfl
  exact laneSum_apply _ _ _ b

/-! ## The block row as the array row -/

/-- If the loads hold, at block row `b`, row `r` of the context and of θ, the two weight matrices whole, the two
    biases as rows, and the identity matrix, the stored value at lane `b` is the folded row `r`. -/
theorem pay_row (T : FVec Ideal S16384x64 .f32) (X : FVec Ideal S16384x128 .f32) (Wm Ws : FVec Ideal S128x64 .f32)
    (bm bs : FVec Ideal S64 .f32) (r : Fin 16384) (b : Fin 4096)
    (h0 : ∀ k : Fin 128, v0 (ix2 b k) = X (ix2 r k)) (h7 : ∀ j : Fin 64, v7 (ix2 b j) = T (ix2 r j))
    (h3 : v3 = Wm) (h5 : v5 = Ws)
    (h1 : ∀ j d : Fin 64, v1 (ix2 j d) = if j = d then 1 else 0)
    (h9 : ∀ j : Fin 64, v9 (ix2 (0 : Fin 1) j) = bm (ix1 j)) (h12 : ∀ j : Fin 64, v12 (ix2 (0 : Fin 1) j) = bs (ix1 j)) :
    k0_pay1 (F := Ideal) v0 v1 v3 v5 v7 v9 v12 (ix1 b) = rowFolded T X Wm bm Ws bs r := by
  have hls : ∀ d : Fin 64, lsVec v0 v1 v5 v12 (ix2 d b) = logScale X Ws bs r d := fun d => by
    rw [lsVec_apply]
    unfold logScale affine
    refine congrArg Ideal.tanh (congrArg₂ (· + ·) (Finset.sum_congr rfl fun k _ => ?_) ?_)
    · rw [h5, h0, mul_comm]
    · exact (sum_unit_mul d (fun j => v1 (ix2 j d)) (fun j => v12 (ix2 (0 : Fin 1) j)) (fun j => h1 j d)).trans (h12 d)
  have hz : ∀ d : Fin 64, zVec v0 v1 v3 v5 v7 v9 v12 (ix2 d b) = resid T X Wm bm Ws bs r d := fun d => by
    rw [zVec_apply, hls]
    unfold resid affine
    refine congrArg₂ (· * ·) (congrArg₂ (· - ·) ?_ (congrArg₂ (· + ·) (Finset.sum_congr rfl fun k _ => ?_) ?_)) ?_
    · exact (sum_unit_mul d (fun j => v1 (ix2 j d)) (fun j => v7 (ix2 b j)) (fun j => h1 j d)).trans (h7 d)
    · rw [h3, h0, mul_comm]
    · exact (sum_unit_mul d (fun j => v1 (ix2 j d)) (fun j => v9 (ix2 (0 : Fin 1) j)) (fun j => h1 j d)).trans (h9 d)
    · rw [Words.zero, zero_sub]
  rw [pay_apply]
  unfold rowFolded
  simp only [hls, hz]

end Cert.KernelIdeal.RowValue

end
-- ==== Proof.HostPrefix.lean ====
/-
  What the three host-built operands hold when the kernel's region is entered.

  Before the launch the program builds, on the host, the 64×64 identity matrix — an iota along each axis, the two
  compared for equality, the bit converted to a float: entry (j, d) is 1 when j = d and 0 otherwise — and lays each
  bias vector [64] out as a row [1,64]. The region's windows 6, 3 and 5 stage these three arrays.
-/
import proofs.«135017_g32315333935317_cont_9to1_898_14_alg».proof.Proof.Gen.KernelIdeal.Frame
import Idealize.ShloMosaic.Lib.StableHlo.Run
import Idealize.ShloMosaic.Lib.ValueIdx
import Idealize.ShloMosaic.Lib.Pipeline.Value
import Idealize.ShloMosaic.Lib.Affine

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The identity matrix -/

/-- The equality bit of two row/column numbers below 64, as 32-bit words (the first with the zero the host adds). -/
theorem eqBit (j d : Fin 64) :
    IntOp.cmpi .eq (IntOp.addi (BitVec.ofNat 32 j.val) 0#32) (BitVec.ofNat 32 d.val) = if j = d then 1#1 else 0#1 := by
  by_cases h : j = d
  · subst h; rw [if_pos rfl]; exact IntOp.cmpi_eq.mpr (by simp [IntOp.addi])
  · rw [if_neg h]
    refine ValueIdx.eq_zero_of_ne_one fun e => h ?_
    have e' : BitVec.ofNat 32 j.val = BitVec.ofNat 32 d.val := by
      have := IntOp.cmpi_eq.mp e
      simpa [IntOp.addi] using this
    have e2 := congrArg BitVec.toNat e'
    rw [BitVec.toNat_ofNat, BitVec.toNat_ofNat] at e2
    exact Fin.ext (by have := j.isLt; have := d.isLt; omega)

/-- Window 6's array at region entry is the host's chain: iota, iota, compare, convert. -/
theorem V_eye (c : Dev nD) :
    (V m c main_call0_v5 : S64x64.Idx → EReal)
      = uitofp (F := Ideal) .f32 (cmpi .eq (addi (iotaInDim S64x64 32 0) (broadcastInDim S64x64 ![] bcast_S_S64x64 (constantI S_ 32 0#32)))
          (iotaInDim S64x64 32 1)) := by
  dsimp only [V, hostOps0]; after_results; rfl

/-- Its entry (j, d): one on the diagonal, zero off it. -/
theorem eye_apply (c : Dev nD) (j d : Fin 64) :
    (V m c main_call0_v5 : S64x64.Idx → EReal) (ix2 j d) = (if j = d then (1 : EReal) else (0 : EReal)) := by
  rw [V_eye]
  show (((IntOp.cmpi .eq (IntOp.addi (BitVec.ofNat 32 j.val) 0#32) (BitVec.ofNat 32 d.val)).toNat : ℝ) : EReal)
      = (if j = d then (1 : EReal) else (0 : EReal))
  rw [eqBit]
  by_cases h : j = d
  · rw [if_pos h, if_pos h]; simp
  · rw [if_neg h, if_neg h]; simp

/-! ## The bias rows -/

/-- Window 3's array at region entry: the mean's bias laid out as a row. -/
theorem V_biasMean (c : Dev nD) :
    (V m c main_call0_v6 : S1x64.Idx → EReal)
      = broadcastInDim S1x64 ![1] bcast_S64_S1x64_1 (m ((c : Thread nD τ).loc main_arg3)) := by
  dsimp only [V, hostOps0]; after_results; rfl

/-- Window 5's array at region entry: the log-scale's bias laid out as a row. -/
theorem V_biasScale (c : Dev nD) :
    (V m c main_call0_v7 : S1x64.Idx → EReal)
      = broadcastInDim S1x64 ![1] bcast_S64_S1x64_1 (m ((c : Thread nD τ).loc main_arg5)) := by
  dsimp only [V, hostOps0]; after_results; rfl

/-- A vector [64] laid out as a row [1,64], at (0, j), is its entry j. -/
theorem row_apply (x : S64.Idx → EReal) (j : Fin 64) :
    broadcastInDim S1x64 ![1] bcast_S64_S1x64_1 x (ix2 (0 : Fin 1) j) = x (ix1 j) :=
  broadcastInDim_apply _ bcast_S64_S1x64_1 x (ix2 (0 : Fin 1) j) (ix1 j) (fun a => match a with
    | ⟨0, _⟩ => by show j.val = if (64 : Nat) = 1 then 0 else j.val; rw [if_neg (by decide)])

theorem biasMean_apply (c : Dev nD) (j : Fin 64) :
    (V m c main_call0_v6 : S1x64.Idx → EReal) (ix2 (0 : Fin 1) j) = m ((c : Thread nD τ).loc main_arg3) (ix1 j) := by
  rw [V_biasMean]; exact row_apply _ j

theorem biasScale_apply (c : Dev nD) (j : Fin 64) :
    (V m c main_call0_v7 : S1x64.Idx → EReal) (ix2 (0 : Fin 1) j) = m ((c : Thread nD τ).loc main_arg5) (ix1 j) := by
  rw [V_biasScale]; exact row_apply _ j

end Cert.KernelIdeal.HostPrefix

end
-- ==== Proof.ArrayValue.lean ====
/-
  From the blocks to the array: after the run, entry i of the kernel's result is the folded row i of the arguments.

  The grid has four points; point t stages rows 4096·t … 4096·t + 4095 of θ and of the context, the two weight
  matrices, the two bias rows and the identity matrix whole, and writes back block t of the result, 4096 entries.
  Lane y of what point t writes is the body's stored value at lane y, which is the folded row 4096·t + y; the four
  blocks tile the 16384 entries, row r lying in block r / 4096.
-/
import proofs.«135017_g32315333935317_cont_9to1_898_14_alg».proof.Proof.Gen.KernelIdeal.Value
import proofs.«135017_g32315333935317_cont_9to1_898_14_alg».proof.Proof.KernelRow
import proofs.«135017_g32315333935317_cont_9to1_898_14_alg».proof.Proof.HostPrefix

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.FlowLogProb

variable (m : (ℓ : Loc nD τ sig) → Buf (Elt Ideal) ℓ) (ρ : Dev nD → PrngReg)

theorem zeros1 : (![0] : Fin 1 → Nat) = fun _ => 0 := funext fun a => by fin_cases a <;> rfl
theorem zeros2 : (![0, 0] : Fin 2 → Nat) = fun _ => 0 := funext fun a => by fin_cases a <;> rfl

/-- The result array as one function of the launch contents of the six arguments: entry i is the folded row i. -/
def arrayFolded (c : Dev nD) : S16384.Idx → EReal := fun i =>
  rowFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨(i 0).val, (i 0).isLt⟩

/-- The body's stored value at a lane of the block, when the loads hold the row's data: the folded row. -/
theorem block_row (T : FVec Ideal S16384x64 .f32) (X : FVec Ideal S16384x128 .f32) (Wm : FVec Ideal S128x64 .f32)
    (bm : FVec Ideal S64 .f32) (Ws : FVec Ideal S128x64 .f32) (bs : FVec Ideal S64 .f32)
    (v0 : FVec Ideal S4096x128 .f32) (v1 : FVec Ideal S64x64 .f32) (v3 v5 : FVec Ideal S128x64 .f32)
    (v7 : FVec Ideal S4096x64 .f32) (v9 v12 : FVec Ideal S1x64 .f32) (y : S4096.Idx) (r : Fin 16384)
    (h0 : ∀ k : Fin 128, v0 (ix2 (⟨(y 0).val, (y 0).isLt⟩ : Fin 4096) k) = X (ix2 r k))
    (h7 : ∀ j : Fin 64, v7 (ix2 (⟨(y 0).val, (y 0).isLt⟩ : Fin 4096) j) = T (ix2 r j))
    (h3 : v3 = Wm) (h5 : v5 = Ws)
    (h1 : ∀ j d : Fin 64, v1 (ix2 j d) = if j = d then 1 else 0)
    (h9 : ∀ j : Fin 64, v9 (ix2 (0 : Fin 1) j) = bm (ix1 j)) (h12 : ∀ j : Fin 64, v12 (ix2 (0 : Fin 1) j) = bs (ix1 j)) :
    k0_pay1 (F := Ideal) v0 v1 v3 v5 v7 v9 v12 y = rowFolded T X Wm bm Ws bs r := by
  obtain ⟨b, rfl⟩ : ∃ b : Fin 4096, y = ix1 b := ⟨y 0, eq_ix1 y⟩
  exact RowValue.pay_row v0 v1 v3 v5 v7 v9 v12 T X Wm Ws bm bs r b h0 h7 h3 h5 h1 h9 h12

/-- The printed index maps, decided over the four points: θ's and the context's blocks move with the result's along
    the rows; every other operand sits at block (0, 0); the result's block number is the point's. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = t.val :=
  (by decide +kernel : ∀ t : Fin grid0.N, _)

/-- Every block number below four is some point's. -/
theorem idx_onto : ∀ q : Fin 4, ∃ t : Fin cfg0.N, win0_7.index t (0 : Fin 1) = q.val :=
  (by decide +kernel : ∀ q : Fin 4, ∃ t : Fin grid0.N, win0_7.index t (0 : Fin 1) = q.val)

/-- What grid point t writes back to the result is block t of `arrayFolded`. -/
theorem flushed_eq (c : Dev nD) (t : Fin cfg0.N) :
    (dats m 0 c).flushed 7 t = ((cfg0.win 7).blk t).view.read (Elt Ideal) (arrayFolded m c) := by
  rw [Value.flushed7]
  unfold out0_7
  rw [View.canon_unit_zero zeros1]
  simp only [View.ld_unit_zero (S := S4096x128) zeros2, View.ld_unit_zero (S := S64x64) zeros2,
    View.ld_unit_zero (S := S128x64) zeros2, View.ld_unit_zero (S := S4096x64) zeros2, View.ld_unit_zero (S := S1x64) zeros2]
  obtain ⟨e00, e01, e10, e11, e20, e21, e30, e31, e40, e41, e50, e51, e60, e61, e7⟩ := idx_facts t
  have ht : t.val < 4 := by have := t.isLt; have hN : cfg0.N = 4 := N_0; omega
  funext y
  have hy : (y 0).val < 4096 := (y 0).isLt
  have hr : t.val * 4096 + (y 0).val < 16384 := by omega
  show k0_pay1 (F := Ideal) (iblk m c 1 t) (iblk m c 6 t) (iblk m c 2 t) (iblk m c 4 t) (iblk m c 0 t) (iblk m c 3 t) (iblk m c 5 t) y
      = arrayFolded m c (((cfg0.win 7).blk t).view.emb y)
  have hrow : arrayFolded m c (((cfg0.win 7).blk t).view.emb y)
      = rowFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (⟨t.val * 4096 + (y 0).val, hr⟩ : Fin 16384) := by
    simp only [arrayFolded]
    refine congrArg (rowFolded _ _ _ _ _ _) (Fin.ext ?_)
    show win0_7.index t (0 : Fin 1) * 4096 + 1 * (y 0).val = t.val * 4096 + (y 0).val
    omega
  rw [hrow]
  refine block_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk m c 1 t) (iblk m c 6 t) (iblk m c 2 t) (iblk m c 4 t) (iblk m c 0 t) (iblk m c 3 t) (iblk m c 5 t) y
    (⟨t.val * 4096 + (y 0).val, hr⟩ : Fin 16384) ?_ ?_ ?_ ?_ ?_ ?_ ?_
  · -- the context block: row y of the block is row t·4096 + y of the array
    intro k
    show V m c main_arg1 (((cfg0.win 1).blk t).view.emb (ix2 (⟨(y 0).val, hy⟩ : Fin 4096) k)) = _
    have hidx : ((cfg0.win 1).blk t).view.emb (ix2 (⟨(y 0).val, hy⟩ : Fin 4096) k)
        = ix2 (⟨t.val * 4096 + (y 0).val, hr⟩ : Fin 16384) k := by
      funext a; apply Fin.ext
      match a with
      | ⟨0, _⟩ => show win0_1.index t (0 : Fin 2) * 4096 + 1 * (y 0).val = t.val * 4096 + (y 0).val; omega
      | ⟨1, _⟩ => show win0_1.index t (1 : Fin 2) * 128 + 1 * k.val = k.val; omega
    rw [hidx, V_main_arg1]
  · -- the θ block: row y of the block is row t·4096 + y of the array
    intro k
    show V m c main_arg0 (((cfg0.win 0).blk t).view.emb (ix2 (⟨(y 0).val, hy⟩ : Fin 4096) k)) = _
    have hidx : ((cfg0.win 0).blk t).view.emb (ix2 (⟨(y 0).val, hy⟩ : Fin 4096) k)
        = ix2 (⟨t.val * 4096 + (y 0).val, hr⟩ : Fin 16384) k := by
      funext a; apply Fin.ext
      match a with
      | ⟨0, _⟩ => show win0_0.index t (0 : Fin 2) * 4096 + 1 * (y 0).val = t.val * 4096 + (y 0).val; omega
      | ⟨1, _⟩ => show win0_0.index t (1 : Fin 2) * 64 + 1 * k.val = k.val; omega
    rw [hidx, V_main_arg0]
  · -- the mean's weights: the one block is the whole matrix
    funext z
    show V m c main_arg2 (((cfg0.win 2).blk t).view.emb z) = _
    have hz0 : (z 0).val < 128 := (z 0).isLt
    have hz1 : (z 1).val < 64 := (z 1).isLt
    have hidx : ((cfg0.win 2).blk t).view.emb z = z := by
      funext a; apply Fin.ext
      match a with
      | ⟨0, _⟩ => show win0_2.index t (0 : Fin 2) * 128 + 1 * (z 0).val = (z 0).val; omega
      | ⟨1, _⟩ => show win0_2.index t (1 : Fin 2) * 64 + 1 * (z 1).val = (z 1).val; omega
    rw [hidx, V_main_arg2]
  · -- the log-scale's weights: the one block is the whole matrix
    funext z
    show V m c main_arg4 (((cfg0.win 4).blk t).view.emb z) = _
    have hz0 : (z 0).val < 128 := (z 0).isLt
    have hz1 : (z 1).val < 64 := (z 1).isLt
    have hidx : ((cfg0.win 4).blk t).view.emb z = z := by
      funext a; apply Fin.ext
      match a with
      | ⟨0, _⟩ => show win0_4.index t (0 : Fin 2) * 128 + 1 * (z 0).val = (z 0).val; omega
      | ⟨1, _⟩ => show win0_4.index t (1 : Fin 2) * 64 + 1 * (z 1).val = (z 1).val; omega
    rw [hidx, V_main_arg4]
  · -- the identity matrix: the one block is the whole matrix
    intro j d
    show V m c main_call0_v5 (((cfg0.win 6).blk t).view.emb (ix2 j d)) = _
    have hidx : ((cfg0.win 6).blk t).view.emb (ix2 j d) = ix2 j d := by
      funext a; apply Fin.ext
      match a with
      | ⟨0, _⟩ => show win0_6.index t (0 : Fin 2) * 64 + 1 * j.val = j.val; omega
      | ⟨1, _⟩ => show win0_6.index t (1 : Fin 2) * 64 + 1 * d.val = d.val; omega
    rw [hidx]
    exact HostPrefix.eye_apply m c j d
  · -- the mean's bias row: the one block is the whole row [1,64]
    intro j
    show V m c main_call0_v6 (((cfg0.win 3).blk t).view.emb (ix2 (0 : Fin 1) j)) = _
    have hidx : ((cfg0.win 3).blk t).view.emb (ix2 (0 : Fin 1) j) = ix2 (0 : Fin 1) j := by
      funext a; apply Fin.ext
      match a with
      | ⟨0, _⟩ => show win0_3.index t (0 : Fin 2) * 1 + 1 * 0 = 0; omega
      | ⟨1, _⟩ => show win0_3.index t (1 : Fin 2) * 64 + 1 * j.val = j.val; omega
    rw [hidx]
    exact HostPrefix.biasMean_apply m c j
  · -- the log-scale's bias row: the one block is the whole row [1,64]
    intro j
    show V m c main_call0_v7 (((cfg0.win 5).blk t).view.emb (ix2 (0 : Fin 1) j)) = _
    have hidx : ((cfg0.win 5).blk t).view.emb (ix2 (0 : Fin 1) j) = ix2 (0 : Fin 1) j := by
      funext a; apply Fin.ext
      match a with
      | ⟨0, _⟩ => show win0_5.index t (0 : Fin 2) * 1 + 1 * 0 = 0; omega
      | ⟨1, _⟩ => show win0_5.index t (1 : Fin 2) * 64 + 1 * j.val = j.val; omega
    rw [hidx]
    exact HostPrefix.biasScale_apply m c j

/-- An entry of the result is in point t's block iff it lies in the block's range. -/
theorem mem_blk (t : Fin cfg0.N) (i : S16384.Idx) :
    i ∈ ((cfg0.win 7).blk t).view.set
      ↔ ∀ a : Fin 1, win0_7.index t a * S4096.size a ≤ (i a).val ∧ (i a).val < win0_7.index t a * S4096.size a + S4096.size a := by
  show i ∈ ((View.whole main_v0).slice (win0_7.rect t)).set ↔ _
  rw [View.set_slice_whole, Rect.mem_set_unit]
  exact Iff.rfl

/-- The four blocks cover the result: entry i lies in block i / 4096. -/
theorem cover (i : S16384.Idx) : ∃ t : Fin cfg0.N, (cfg0.win 7).flush t = true ∧ i ∈ ((cfg0.win 7).blk t).view.set := by
  have hi : (i 0).val < 16384 := (i 0).isLt
  obtain ⟨t, ht⟩ := idx_onto ⟨(i 0).val / 4096, by omega⟩
  have q : win0_7.index t (0 : Fin 1) = (i 0).val / 4096 := ht
  refine ⟨t, flush0_7 t, ?_⟩
  rw [mem_blk]
  intro a
  match a with
  | ⟨0, _⟩ => show win0_7.index t (0 : Fin 1) * 4096 ≤ (i 0).val ∧ (i 0).val < win0_7.index t (0 : Fin 1) * 4096 + 4096; omega

/-- After the last grid point the result array is `arrayFolded` of the launch contents. -/
theorem final (c : Dev nD) : (dats m 0 c).arrAt 7 cfg0.N = arrayFolded m c :=
  (dats m 0 c).arrAt_eq_of_cover 7 (arrayFolded m c) (fun t _ => flushed_eq m c t) cover

/-- The frame run re-posted: the result at `arrayFolded` of the launch contents, the arguments unchanged. -/
theorem run : θ_run defs (onTc (τ := τ) (main (F := Ideal))) ⟨m, fun _ => 0, ρ⟩ fun r => ∀ c : Dev nD,
      r.2.mem ((c : Thread nD τ).loc main_v0) = arrayFolded m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.ArrayValue

end
-- ==== Proof.RefRow.lean ====
/-
  The reference computes the row function of the specification.

  Its 28 host operations are read one at a time at an index: the two `dot_general`s as sums over the 128 context
  features, the biases through their two broadcasts, `tanh`, `negate`, `exp` at the entry, the two row sums over the
  64 features with their zero initial values, the two scalar factors and the final division. Read at row `r` and
  feature `d` the stages are the specification's `affine`, `logScale` and `resid`; the result at entry `i` is
  `rowLogProb` of row `i`.
-/
import proofs.«135017_g32315333935317_cont_9to1_898_14_alg».proof.Proof.Gen.ReferenceIdeal.Read
import proofs.«135017_g32315333935317_cont_9to1_898_14_alg».proof.Proof.Spec

noncomputable section

namespace Cert.ReferenceIdeal.RowValue

open Cert.ReferenceIdeal Cert.ReferenceIdeal.Gen Cert.ReferenceIdeal.Read Idealize.ShloMosaic Idealize.ShloMosaic.ValueIdx
open Cert.FlowLogProb

/-! ## The operand indices the stages read, by coordinates -/

theorem sumIdx16 (i : S16384.Idx) (d : Fin 64) : idx_main_v16 i d = ix2 (⟨(i 0).val, (i 0).isLt⟩ : Fin 16384) d :=
  funext fun a => by match a with | ⟨0, _⟩ => rfl | ⟨1, _⟩ => rfl

theorem sumIdx19 (i : S16384.Idx) (d : Fin 64) : idx_main_v19 i d = ix2 (⟨(i 0).val, (i 0).isLt⟩ : Fin 16384) d :=
  funext fun a => by match a with | ⟨0, _⟩ => rfl | ⟨1, _⟩ => rfl

theorem lhsIdx0 (r : Fin 16384) (d : Fin 64) (k : Fin 128) : lidx_main_v0 (ix2 r d) k = ix2 r k :=
  funext fun a => by match a with | ⟨0, _⟩ => rfl | ⟨1, _⟩ => rfl

theorem rhsIdx0 (r : Fin 16384) (d : Fin 64) (k : Fin 128) : ridx_main_v0 (ix2 r d) k = ix2 k d :=
  funext fun a => by match a with | ⟨0, _⟩ => rfl | ⟨1, _⟩ => rfl

theorem lhsIdx4 (r : Fin 16384) (d : Fin 64) (k : Fin 128) : lidx_main_v4 (ix2 r d) k = ix2 r k :=
  funext fun a => by match a with | ⟨0, _⟩ => rfl | ⟨1, _⟩ => rfl

theorem rhsIdx4 (r : Fin 16384) (d : Fin 64) (k : Fin 128) : ridx_main_v4 (ix2 r d) k = ix2 k d :=
  funext fun a => by match a with | ⟨0, _⟩ => rfl | ⟨1, _⟩ => rfl

theorem biasIdx12 (r : Fin 16384) (d : Fin 64) : idx_main_v1 (idx_main_v2 (ix2 r d)) = ix1 d :=
  funext fun a => by match a with | ⟨0, _⟩ => rfl

theorem biasIdx56 (r : Fin 16384) (d : Fin 64) : idx_main_v5 (idx_main_v6 (ix2 r d)) = ix1 d :=
  funext fun a => by match a with | ⟨0, _⟩ => rfl

/-! ## The stages at row `r`, feature `d` -/

/-- The mean: the context row times the weights' column, plus the bias. -/
theorem mean_at (x1 : (⟨S16384x128, .f32⟩ : BufTy).Contents (Elt Ideal)) (x2 : (⟨S128x64, .f32⟩ : BufTy).Contents (Elt Ideal)) (x3 : (⟨S64, .f32⟩ : BufTy).Contents (Elt Ideal)) (r : Fin 16384) (d : Fin 64) :
    val_main_v3 (F := Ideal) x1 x2 x3 (ix2 r d) = affine x1 x2 x3 r d := by
  rw [val_main_v3_apply, val_main_v0_apply, val_main_v2_apply, val_main_v1_apply, biasIdx12, Ideal.addf_def]
  unfold affine
  refine congrArg₂ (· + ·) (Finset.sum_congr rfl fun k _ => ?_) rfl
  rw [lhsIdx0, rhsIdx0]

/-- The log-scale's pre-activation, the same map by the other weights. -/
theorem pre_at (x1 : (⟨S16384x128, .f32⟩ : BufTy).Contents (Elt Ideal)) (x4 : (⟨S128x64, .f32⟩ : BufTy).Contents (Elt Ideal)) (x5 : (⟨S64, .f32⟩ : BufTy).Contents (Elt Ideal)) (r : Fin 16384) (d : Fin 64) :
    val_main_v7 (F := Ideal) x1 x4 x5 (ix2 r d) = affine x1 x4 x5 r d := by
  rw [val_main_v7_apply, val_main_v4_apply, val_main_v6_apply, val_main_v5_apply, biasIdx56, Ideal.addf_def]
  unfold affine
  refine congrArg₂ (· + ·) (Finset.sum_congr rfl fun k _ => ?_) rfl
  rw [lhsIdx4, rhsIdx4]

/-- The log-scale. -/
theorem logScale_at (x1 : (⟨S16384x128, .f32⟩ : BufTy).Contents (Elt Ideal)) (x4 : (⟨S128x64, .f32⟩ : BufTy).Contents (Elt Ideal)) (x5 : (⟨S64, .f32⟩ : BufTy).Contents (Elt Ideal)) (r : Fin 16384) (d : Fin 64) :
    val_main_v8 (F := Ideal) x1 x4 x5 (ix2 r d) = logScale x1 x4 x5 r d := by
  rw [val_main_v8_apply, pre_at, Ideal.hostUnary_tanh_def]
  rfl

/-- The standardised residual. -/
theorem resid_at (x0 : (⟨S16384x64, .f32⟩ : BufTy).Contents (Elt Ideal)) (x1 : (⟨S16384x128, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (r : Fin 16384) (d : Fin 64) :
    val_main_v12 (F := Ideal) x0 x1 x2 x3 x4 x5 (ix2 r d) = resid x0 x1 x2 x3 x4 x5 r d := by
  rw [val_main_v12_apply, val_main_v9_apply, val_main_v11_apply, val_main_v10_apply, mean_at, logScale_at,
    Ideal.mulf_def, Ideal.subf_def, Ideal.hostUnary_exp_def, Ideal.hostNegf_def, Ideal.negf_def]
  rfl

/-- A term of the first row sum: the squared residual plus the word for log 2π. -/
theorem term_at (x0 : (⟨S16384x64, .f32⟩ : BufTy).Contents (Elt Ideal)) (x1 : (⟨S16384x128, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) (r : Fin 16384) (d : Fin 64) :
    val_main_v15 (F := Ideal) x0 x1 x2 x3 x4 x5 (ix2 r d)
      = resid x0 x1 x2 x3 x4 x5 r d * resid x0 x1 x2 x3 x4 x5 r d + Ideal.ofBits .f32 0x3FEB3F8E#32 := by
  rw [val_main_v15_apply, val_main_v13_apply, resid_at, val_main_v14_apply, val_main_cst_apply,
    Ideal.addf_def, Ideal.mulf_def, Ideal.ofBits_def]

/-! ## The result -/

/-- The reference's result array is the specification's `logProb` of the six arguments. -/
theorem result_eq (x0 : (⟨S16384x64, .f32⟩ : BufTy).Contents (Elt Ideal)) (x1 : (⟨S16384x128, .f32⟩ : BufTy).Contents (Elt Ideal)) (x2 : (⟨S128x64, .f32⟩ : BufTy).Contents (Elt Ideal)) (x3 : (⟨S64, .f32⟩ : BufTy).Contents (Elt Ideal)) (x4 : (⟨S128x64, .f32⟩ : BufTy).Contents (Elt Ideal)) (x5 : (⟨S64, .f32⟩ : BufTy).Contents (Elt Ideal)) :
    val_main_v22 (F := Ideal) x0 x1 x2 x3 x4 x5 = logProb x0 x1 x2 x3 x4 x5 := by
  funext i
  rw [val_main_v22_apply, val_main_v20_apply, val_main_v18_apply, val_main_v17_apply, val_main_cst_1_apply,
    val_main_v16_apply, val_main_cst_0_apply, val_main_v19_apply, val_main_cst_2_apply, val_main_v21_apply,
    val_main_cst_3_apply]
  simp only [Ideal.hostDivf_def, Ideal.subf_def, Ideal.mulf_def, Ideal.ofBits_def]
  unfold logProb rowLogProb
  refine congrArg₂ Ideal.div (congrArg₂ (· - ·) (congrArg₂ (· * ·) rfl (congrArg₂ (· + ·) rfl
    (Finset.sum_congr rfl fun d _ => ?_))) (congrArg₂ (· + ·) rfl (Finset.sum_congr rfl fun d _ => ?_))) rfl
  · rw [sumIdx16, term_at]
  · rw [sumIdx19, logScale_at]

end Cert.ReferenceIdeal.RowValue

end
-- ==== Proof.RowLaw.lean ====
/-
  One row of the log-density, two spellings of one number.

  For a row with residuals z_d and log-scales l_d (d over the 64 features), both real, and L the word for log(2π):

    the kernel      (-1/4) · Σ_d (z_d² + 2·l_d)  +  (-16·L)
    the reference   ((-1/2) · (0 + Σ_d (z_d² + L))  -  (0 + Σ_d l_d)) / 2

  Distributing the factors over the 64-term sums gives -(1/4)·Σ z² - (1/2)·Σ l - 16·L on both sides (64·L/4 = 16·L).
  Distributivity fails on the extended reals at the infinities, so the law is proved for REAL z and l: the sums
  and products of coerced reals are coerced reals, and the identity is one of real arithmetic.
-/
import proofs.«135017_g32315333935317_cont_9to1_898_14_alg».proof.Proof.Words

noncomputable section

namespace Cert.FlowLogProb

open Idealize.ShloMosaic

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row law over the reals, coerced. -/
theorem row_law_real (L : ℝ) (z l : Fin 64 → ℝ) :
    ((-(1 / 4) : ℝ) : EReal) * (∑ d, ((z d : EReal) * (z d : EReal) + ((2 : ℝ) : EReal) * (l d : EReal)))
        + ((-(16 * L) : ℝ) : EReal)
      = Ideal.div (((-(1 / 2) : ℝ) : EReal) * (0 + ∑ d, ((z d : EReal) * (z d : EReal) + (L : EReal)))
          - (0 + ∑ d, (l d : EReal))) ((2 : ℝ) : EReal) := by
  rw [Ideal.div_coe (by norm_num : (2 : ℝ) ≠ 0)]
  simp only [zero_add, ← EReal.coe_mul, ← EReal.coe_add, ← coe_sum, ← EReal.coe_sub]
  rw [EReal.coe_eq_coe_iff]
  have h1 : ∑ d, (z d * z d + 2 * l d) = (∑ d, z d * z d) + 2 * ∑ d, l d := by
    rw [Finset.sum_add_distrib, Finset.mul_sum]
  have h2 : ∑ d : Fin 64, (z d * z d + L) = (∑ d, z d * z d) + 64 * L := by
    rw [Finset.sum_add_distrib, Finset.sum_const, Finset.card_univ, Fintype.card_fin]
    simp
  rw [h1, h2]
  ring

/-- The row law on the extended reals, over the words as the two programs spell them, for residuals and
    log-scales that are real numbers. -/
theorem row_law (z l : Fin 64 → EReal) (hz : ∀ d, z d ≠ ⊤ ∧ z d ≠ ⊥) (hl : ∀ d, l d ≠ ⊤ ∧ l d ≠ ⊥) :
    Ideal.ofBits .f32 0xBE800000#32 * (∑ d, (z d * z d + Ideal.ofBits .f32 0x40000000#32 * l d))
        + Ideal.ofBits .f32 0xC1EB3F8E#32
      = Ideal.div (Ideal.ofBits .f32 0xBF000000#32 * (Ideal.ofBits .f32 0x00000000#32 + ∑ d, (z d * z d + Ideal.ofBits .f32 0x3FEB3F8E#32))
          - (Ideal.ofBits .f32 0x00000000#32 + ∑ d, l d)) (Ideal.ofBits .f32 0x40000000#32) := by
  lift z to Fin 64 → ℝ using hz
  lift l to Fin 64 → ℝ using hl
  rw [Words.negQuarter, Words.two, Words.folded, Words.negHalf, Words.zero, Words.log2pi]
  exact row_law_real _ z l

end Cert.FlowLogProb

end
-- ==== Proof.Reals.lean ====
/-
  With real inputs every residual and log-scale of a row is a real number, so the kernel's spelling of the row is
  the reference's (the row law).

  `tanh` sends every extended real to a real (±1 at ±∞), `exp` of a real is a real, and sums, differences and
  products of reals are reals. The log-scale is therefore real whatever its argument; the residual is real as
  soon as θ, the context, the mean's weights and its bias are.
-/
import proofs.«135017_g32315333935317_cont_9to1_898_14_alg».proof.Proof.Spec
import proofs.«135017_g32315333935317_cont_9to1_898_14_alg».proof.Proof.RowLaw

noncomputable section

namespace Cert.FlowLogProb

open Idealize.ShloMosaic Idealize.ShloMosaic.ValueIdx

/-- An extended real that is a real number. -/
def IsReal (x : EReal) : Prop := x ≠ ⊤ ∧ x ≠ ⊥

theorem isReal_coe (x : ℝ) : IsReal (x : EReal) := ⟨EReal.coe_ne_top x, EReal.coe_ne_bot x⟩

theorem IsReal.add {x y : EReal} (hx : IsReal x) (hy : IsReal y) : IsReal (x + y) := by
  lift x to ℝ using hx; lift y to ℝ using hy; rw [← EReal.coe_add]; exact isReal_coe _

theorem IsReal.sub {x y : EReal} (hx : IsReal x) (hy : IsReal y) : IsReal (x - y) := by
  lift x to ℝ using hx; lift y to ℝ using hy; rw [← EReal.coe_sub]; exact isReal_coe _

theorem IsReal.mul {x y : EReal} (hx : IsReal x) (hy : IsReal y) : IsReal (x * y) := by
  lift x to ℝ using hx; lift y to ℝ using hy; rw [← EReal.coe_mul]; exact isReal_coe _

theorem IsReal.neg {x : EReal} (hx : IsReal x) : IsReal (-x) := by
  lift x to ℝ using hx; rw [← EReal.coe_neg]; exact isReal_coe _

theorem isReal_sum {ι : Type} (s : Finset ι) (f : ι → EReal) (hf : ∀ i, IsReal (f i)) : IsReal (∑ i ∈ s, f i) := by
  lift f to ι → ℝ using hf
  rw [← coe_sum]; exact isReal_coe _

/-- `tanh` is real everywhere: ±1 at the infinities. -/
theorem isReal_tanh (x : EReal) : IsReal (Ideal.tanh x) := by
  induction x using EReal.rec with
  | bot => rw [Ideal.tanh_bot, show (-1 : EReal) = ((-1 : ℝ) : EReal) by norm_num]; exact isReal_coe _
  | top => rw [Ideal.tanh_top, show (1 : EReal) = ((1 : ℝ) : EReal) by norm_num]; exact isReal_coe _
  | coe r => rw [Ideal.tanh_coe]; exact isReal_coe _

/-- `exp` of a real is real. -/
theorem IsReal.exp {x : EReal} (hx : IsReal x) : IsReal (Ideal.exp x) := by
  lift x to ℝ using hx; rw [Ideal.exp_coe]; exact isReal_coe _

variable (T : (⟨2, ![16384, 64]⟩ : Shape).Idx → EReal) (X : (⟨2, ![16384, 128]⟩ : Shape).Idx → EReal)
  (Wm : (⟨2, ![128, 64]⟩ : Shape).Idx → EReal) (bm : (⟨1, ![64]⟩ : Shape).Idx → EReal)
  (Ws : (⟨2, ![128, 64]⟩ : Shape).Idx → EReal) (bs : (⟨1, ![64]⟩ : Shape).Idx → EReal)

theorem isReal_affine (hX : ∀ i, IsReal (X i)) (hW : ∀ i, IsReal (Wm i)) (hb : ∀ i, IsReal (bm i)) (r : Fin 16384) (d : Fin 64) :
    IsReal (affine X Wm bm r d) :=
  (isReal_sum _ _ fun k => (hX _).mul (hW _)).add (hb _)

theorem isReal_logScale (r : Fin 16384) (d : Fin 64) : IsReal (logScale X Ws bs r d) := isReal_tanh _

theorem isReal_resid (hT : ∀ i, IsReal (T i)) (hX : ∀ i, IsReal (X i)) (hW : ∀ i, IsReal (Wm i)) (hb : ∀ i, IsReal (bm i))
    (r : Fin 16384) (d : Fin 64) : IsReal (resid T X Wm bm Ws bs r d) :=
  ((hT _).sub (isReal_affine X Wm bm hX hW hb r d)).mul (isReal_logScale X Ws bs r d).neg.exp

/-- For real θ, context, mean weights and mean bias, the kernel's spelling of a row is the reference's. -/
theorem rowFolded_eq (hT : ∀ i, IsReal (T i)) (hX : ∀ i, IsReal (X i)) (hW : ∀ i, IsReal (Wm i)) (hb : ∀ i, IsReal (bm i))
    (r : Fin 16384) : rowFolded T X Wm bm Ws bs r = rowLogProb T X Wm bm Ws bs r :=
  row_law (fun d => resid T X Wm bm Ws bs r d) (fun d => logScale X Ws bs r d)
    (fun d => isReal_resid T X Wm bm Ws bs hT hX hW hb r d) (fun d => isReal_logScale X Ws bs r d)

end Cert.FlowLogProb

end
-- ==== Proof.FiniteInputs.lean ====
/-
  The precondition read back: every entry of every argument array is a real number.

  The precondition is the conjunction, over the six arguments, of "every entry's absolute value is below +∞". On the
  extended reals the absolute value of x is max x (-x), which is +∞ exactly at the two infinities; so an entry that
  passes the test is a real. A `jnp.all` that came out true had a true at every index, and a conjunction of bits
  that is 1 has both its sides 1.
-/
import proofs.«135017_g32315333935317_cont_9to1_898_14_alg».proof.Pre_finite_inputs
import proofs.«135017_g32315333935317_cont_9to1_898_14_alg».proof.Proof.Gen.Pre_finite_inputs
import proofs.«135017_g32315333935317_cont_9to1_898_14_alg».proof.Proof.Reals
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx Cert.FlowLogProb

/-- The scalar shape has one index. -/
instance : Subsingleton S_.Idx := ⟨fun _ _ => funext fun d => d.elim0⟩

/-- The f32 word of +∞ is the top of the extended reals. -/
theorem inf_word : Ideal.ofBits .f32 0x7F800000#32 = ⊤ := by
  simp [Ideal.ofBits, Ideal.ieee]

/-- An extended real whose absolute value is below +∞ is a real number. -/
theorem isReal_of_abs_lt (x : EReal) (h : Ideal.cmp .olt (max x (-x)) (Ideal.ofBits .f32 0x7F800000#32) = 1#1) :
    IsReal x := by
  rw [inf_word] at h
  have hlt : max x (-x) < ⊤ := by
    by_contra hn
    simp [Ideal.cmp, hn] at h
  constructor
  · rintro rfl; simp at hlt
  · rintro rfl; simp at hlt

/-- "All entries have absolute value below +∞" came out true: every entry is a real. -/
theorem allReal {s : Shape} (x : FVec Ideal s .f32) (hb : S_.BroadcastsInDim s (![] : Fin 0 → Fin s.rank))
    {axes : List (Fin s.rank)} (hr : s.ReducesTo axes S_) (hS : 0 < S_.numel)
    (e : Host.reduce IntOp.andi (cmpf .olt (Host.absf x) (broadcastInDim s ![] hb (constant (F := Ideal) S_ .f32 0x7F800000#32)))
          (constantI S_ 1 1#1) hr hS ix0 = 1#1) (i : s.Idx) : IsReal (x i) :=
  isReal_of_abs_lt (x i) (Host.reduce_andi_all _ _ hr hS ix0 e i)

/-- The precondition of the certificate, at the ideal values: all six arguments hold real numbers only. -/
theorem reals_of_pre (a0 : FVec Ideal S16384x64 .f32) (a1 : FVec Ideal S16384x128 .f32) (a2 : FVec Ideal S128x64 .f32)
    (a3 : FVec Ideal S64 .f32) (a4 : FVec Ideal S128x64 .f32) (a5 : FVec Ideal S64 .f32)
    (h : fn (F := Ideal) a0 a1 a2 a3 a4 a5 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) := by
  have h0 := congrFun h ix0
  dsimp only [fn, fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨allReal a0 _ _ _ e0, allReal a1 _ _ _ e1, allReal a2 _ _ _ e2, allReal a3 _ _ _ e3,
    allReal a4 _ _ _ e4, allReal a5 _ _ _ e5⟩

end Cert.Pre_finite_inputs.Decode

end
-- ==== Proof.lean ====
/-
  A conditional affine-Gaussian flow's log-density at temperature 2: a transposed, blocked kernel against the plain
  formula.

  For each of 16384 rows, with context x, parameters θ, mean μ = x·Wμ + bμ, log-scale l = tanh(x·Wσ + bσ) and
  standardised residual z = (θ - μ)·exp(-l) over 64 features, the reference returns

      ((-1/2)·Σ_d (z_d² + L) - Σ_d l_d) / 2,        L the f32 word for log 2π,

  and the kernel, working on blocks of 4096 rows with the features down the sublanes (its matrix products contract
  the other way round, θ is transposed and the biases are turned into columns by products with the identity
  matrix), returns

      (-1/4)·Σ_d (z_d² + 2·l_d) + C,                C one folded f32 word.

  C is exactly -16·L (same significand, exponents four apart), and 64·L/4 = 16·L, so over the reals the two are one
  number. On the extended reals distributing a factor over a sum needs the summands finite: the precondition makes
  every argument entry a real, which makes every z_d real (l_d = tanh(·) is real regardless), and the row law
  applies. Everything else — the order of the factors in the products, Σ_j I(j,d)·v(j) = v(d), 0 - l = -l, the
  division by 2 — holds on all extended reals.

  The frames are the generated ones; the ideal pass rewrote nothing, so the idealization claim is trivial.
-/
import proofs.«135017_g32315333935317_cont_9to1_898_14_alg».proof.Defs
import proofs.«135017_g32315333935317_cont_9to1_898_14_alg».proof.Proof.Gen.Kernel
import proofs.«135017_g32315333935317_cont_9to1_898_14_alg».proof.Proof.Gen.Kernel.Frame
import proofs.«135017_g32315333935317_cont_9to1_898_14_alg».proof.Proof.Gen.KernelIdeal
import proofs.«135017_g32315333935317_cont_9to1_898_14_alg».proof.Proof.Gen.KernelIdeal.Frame
import proofs.«135017_g32315333935317_cont_9to1_898_14_alg».proof.Proof.Gen.ReferenceIdeal
import proofs.«135017_g32315333935317_cont_9to1_898_14_alg».proof.Proof.Gen.Pre_finite_inputs
import proofs.«135017_g32315333935317_cont_9to1_898_14_alg».proof.Proof.Gen.KernelIdeal.Value
import proofs.«135017_g32315333935317_cont_9to1_898_14_alg».proof.Proof.Gen.ReferenceIdeal.Run
import proofs.«135017_g32315333935317_cont_9to1_898_14_alg».proof.Proof.Gen.ReferenceIdeal.Read
import proofs.«135017_g32315333935317_cont_9to1_898_14_alg».proof.Proof.ArrayValue
import proofs.«135017_g32315333935317_cont_9to1_898_14_alg».proof.Proof.RefRow
import proofs.«135017_g32315333935317_cont_9to1_898_14_alg».proof.Proof.Reals
import proofs.«135017_g32315333935317_cont_9to1_898_14_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values, from memories that agree on the six arguments, the kernel's result array is the folded
    row function of the arguments and the reference's is the plain one; under the precondition the two agree row
    by row. -/
theorem algebraic : Cert.algebraic_KernelIdeal_ReferenceIdeal := by
  intro m ρ m' ρ' hpre hagree
  refine ⟨fun c => Cert.KernelIdeal.ArrayValue.arrayFolded m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨hT, hX, hWm, hbm, -, -⟩ := Cert.Pre_finite_inputs.Decode.reals_of_pre _ _ _ _ _ _ (hpre c)
  rw [Cert.ReferenceIdeal.Read.val_main_v22_eq, Cert.ReferenceIdeal.RowValue.result_eq,
    (hagree c).1, (hagree c).2.1, (hagree c).2.2.1, (hagree c).2.2.2.1, (hagree c).2.2.2.2.1, (hagree c).2.2.2.2.2]
  funext i
  exact (Cert.FlowLogProb.rowFolded_eq _ _ _ _ _ _ hT hX hWm hbm _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
